-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x12288 : Shape := ⟨2, ![4096, 12288]⟩
abbrev S32x12288 : Shape := ⟨2, ![32, 12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_

variable [Facts]

def fn {F : FTy → Type} [FloatOps F] (main_arg0 : FVec F S4096x4096 .f32) (main_arg1 : IVec S4096x12288 32) (main_arg2 : FVec F S32x12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x12288 .f32 := Host.absf main_arg2
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  main_v8
-- ==== Kernel.lean ====
abbrev S4096x4096 : Shape := ⟨2, ![4096, 4096]⟩
abbrev S4096x12288 : Shape := ⟨2, ![4096, 12288]⟩
abbrev S32x12288 : Shape := ⟨2, ![32, 12288]⟩
abbrev S512x1024 : Shape := ⟨2, ![512, 1024]⟩
abbrev S1024x1024 : Shape := ⟨2, ![1024, 1024]⟩
abbrev S8x1024 : Shape := ⟨2, ![8, 1024]⟩
abbrev S512x128 : Shape := ⟨2, ![512, 128]⟩
abbrev S128x1024 : Shape := ⟨2, ![128, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x12288, .i32⟩
  | .hbm, ⟨2, _⟩ => ⟨S32x12288, .f32⟩
  | .hbm, ⟨3, _⟩ => ⟨S4096x12288, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 12, 4], ![false, false, false]⟩

def k0_cond2 (i : grid0.Coords) : BitVec 1 :=
  let arg2 : BitVec 32 := BitVec.ofNat 32 (i 2).val
  let c3_i32 : BitVec 32 := 3#32
  let v131 : BitVec 1 := Scalar.cmpi .eq arg2 c3_i32
  let v132 : BitVec 32 := Scalar.extui v131
  let c0_i32_81 : BitVec 32 := 0#32
  let v133 : BitVec 1 := Scalar.cmpi .ne v132 c0_i32_81
  v133

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1024_S512x128_0_0 : ∀ a, (![0, 0] : Fin 2 → Nat) a + S512x128.size a ≤ S512x1024.size a
  h_S512x128 : 0 < S512x128.numel
  bitsLt_bf16_f32 : FTy.bits .bf16 < FTy.bits .f32
  inb_S1024x1024_S128x1024_0_0 : ∀ a, (![0, 0] : Fin 2 → Nat) a + S128x1024.size a ≤ S1024x1024.size a
  h_S128x1024 : 0 < S128x1024.numel
  inb_S8x1024_S1x1024_0_0 : ∀ a, (![0, 0] : Fin 2 → Nat) a + S1x1024.size a ≤ S8x1024.size a
  h_S1x1024 : 0 < S1x1024.numel
  broadcasts_S1x1024_S128x1024 : S1x1024.Broadcasts S128x1024
  inb_S512x1024_S512x128_0_128 : ∀ a, (![0, 128] : Fin 2 → Nat) a + S512x128.size a ≤ S512x1024.size a
  inb_S1024x1024_S128x1024_128_0 : ∀ a, (![128, 0] : Fin 2 → Nat) a + S128x1024.size a ≤ S1024x1024.size a
  inb_S8x1024_S1x1024_1_0 : ∀ a, (![1, 0] : Fin 2 → Nat) a + S1x1024.size a ≤ S8x1024.size a
  inb_S512x1024_S512x128_0_256 : ∀ a, (![0, 256] : Fin 2 → Nat) a + S512x128.size a ≤ S512x1024.size a
  inb_S1024x1024_S128x1024_256_0 : ∀ a, (![256, 0] : Fin 2 → Nat) a + S128x1024.size a ≤ S1024x1024.size a
  inb_S8x1024_S1x1024_2_0 : ∀ a, (![2, 0] : Fin 2 → Nat) a + S1x1024.size a ≤ S8x1024.size a
  inb_S512x1024_S512x128_0_384 : ∀ a, (![0, 384] : Fin 2 → Nat) a + S512x128.size a ≤ S512x1024.size a
  inb_S1024x1024_S128x1024_384_0 : ∀ a, (![384, 0] : Fin 2 → Nat) a + S128x1024.size a ≤ S1024x1024.size a
  inb_S8x1024_S1x1024_3_0 : ∀ a, (![3, 0] : Fin 2 → Nat) a + S1x1024.size a ≤ S8x1024.size a
  inb_S512x1024_S512x128_0_512 : ∀ a, (![0, 512] : Fin 2 → Nat) a + S512x128.size a ≤ S512x1024.size a
  inb_S1024x1024_S128x1024_512_0 : ∀ a, (![512, 0] : Fin 2 → Nat) a + S128x1024.size a ≤ S1024x1024.size a
  inb_S8x1024_S1x1024_4_0 : ∀ a, (![4, 0] : Fin 2 → Nat) a + S1x1024.size a ≤ S8x1024.size a
  inb_S512x1024_S512x128_0_640 : ∀ a, (![0, 640] : Fin 2 → Nat) a + S512x128.size a ≤ S512x1024.size a
  inb_S1024x1024_S128x1024_640_0 : ∀ a, (![640, 0] : Fin 2 → Nat) a + S128x1024.size a ≤ S1024x1024.size a
  inb_S8x1024_S1x1024_5_0 : ∀ a, (![5, 0] : Fin 2 → Nat) a + S1x1024.size a ≤ S8x1024.size a
  inb_S512x1024_S512x128_0_768 : ∀ a, (![0, 768] : Fin 2 → Nat) a + S512x128.size a ≤ S512x1024.size a
  inb_S1024x1024_S128x1024_768_0 : ∀ a, (![768, 0] : Fin 2 → Nat) a + S128x1024.size a ≤ S1024x1024.size a
  inb_S8x1024_S1x1024_6_0 : ∀ a, (![6, 0] : Fin 2 → Nat) a + S1x1024.size a ≤ S8x1024.size a
  inb_S512x1024_S512x128_0_896 : ∀ a, (![0, 896] : Fin 2 → Nat) a + S512x128.size a ≤ S512x1024.size a
  inb_S1024x1024_S128x1024_896_0 : ∀ a, (![896, 0] : Fin 2 → Nat) a + S128x1024.size a ≤ S1024x1024.size a
  inb_S8x1024_S1x1024_7_0 : ∀ a, (![7, 0] : Fin 2 → Nat) a + S1x1024.size a ≤ S8x1024.size a
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x12288.size a
  hwx0_1 : ∀ i : grid0.Coords, EltTy.bits .i32 = 32 ∨ (Rect.block (s := S4096x12288) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x12288.size a
  hwx0_2 : ∀ i : grid0.Coords, EltTy.bits .f32 = 32 ∨ (Rect.block (s := S32x12288) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x12288.size a
  hwx0_3 : ∀ i : grid0.Coords, EltTy.bits .f32 = 32 ∨ (Rect.block (s := S4096x12288) S512x1024.size (cc0_transform_3 i) (hinb0_3 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x12288 : Shape := ⟨2, ![4096, 12288]⟩
abbrev S32x12288 : Shape := ⟨2, ![32, 12288]⟩
abbrev S_ : Shape := ⟨0, ![]⟩
abbrev S32x128x12288 : Shape := ⟨3, ![32, 128, 12288]⟩
abbrev S32x1x12288 : Shape := ⟨3, ![32, 1, 12288]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x12288, .i32⟩
  | .hbm, ⟨2, _⟩ => ⟨S32x12288, .f32⟩
  | .hbm, ⟨3, _⟩ => ⟨S4096x12288, .f32⟩
  | .hbm, ⟨4, _⟩ => ⟨S_, .f32⟩
  | .hbm, ⟨5, _⟩ => ⟨S4096x12288, .f32⟩
  | .hbm, ⟨6, _⟩ => ⟨S4096x12288, .f32⟩
  | .hbm, ⟨7, _⟩ => ⟨S32x128x12288, .f32⟩
  | .hbm, ⟨8, _⟩ => ⟨S32x1x12288, .f32⟩
  | .hbm, ⟨9, _⟩ => ⟨S32x128x12288, .f32⟩
  | .hbm, ⟨10, _⟩ => ⟨S32x128x12288, .f32⟩
  | .hbm, ⟨11, _⟩ => ⟨S4096x12288, .f32⟩
  | .hbm, ⟨12, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4096x12288 : S_.BroadcastsInDim S4096x12288 (![] : Fin 0 → Fin S4096x12288.rank)
  shapeCasts_S4096x12288_S32x128x12288 : S4096x12288.ShapeCasts S32x128x12288
  bcast_S32x12288_S32x1x12288_0_2 : S32x12288.BroadcastsInDim S32x1x12288 (![0, 2] : Fin 2 → Fin S32x1x12288.rank)
  bcast_S32x1x12288_S32x128x12288_0_1_2 : S32x1x12288.BroadcastsInDim S32x128x12288 (![0, 1, 2] : Fin 3 → Fin S32x128x12288.rank)
  shapeCasts_S32x128x12288_S4096x12288 : S32x128x12288.ShapeCasts S4096x12288
  dot_S4096x4096_S4096x12288_S4096x12288_1_0_0_1_n_n_wf : DotDims.WF S4096x4096 S4096x12288 S4096x12288 [1] [0] [0] [1] [] []

variable [Facts₀]

def dot_S4096x4096_S4096x12288_S4096x12288_1_0_0_1_n_n : DotDims S4096x4096 S4096x12288 S4096x12288 where
  lhsContracting := [1]
  rhsContracting := [0]
  lhsNonContracting := [0]
  rhsNonContracting := [1]
  lhsBatch := []
  rhsBatch := []
  wf := dot_S4096x4096_S4096x12288_S4096x12288_1_0_0_1_n_n_wf

class Facts : Prop extends Facts₀ where

variable [Facts]
-- ==== Proof.GroupSum.lean ====
/-
  The quantized matrix product as one function of its three arguments, and the regrouping of its sum.

  Entry (p, q) of the result is  Σ_k a[p, k] · w[k, q]  over the 4096 values of the contracted index, where the
  dequantized weight is  w[k, q] = (int(bq[k, q]) − 8) · s[k / 128, q]: one scale per group of 128 consecutive
  rows and per column. The contracted index splits as  k = 1024·t + 128·g + l  with t < 4, g < 8, l < 128, and
  over the extended reals (a commutative monoid under +) the sum over k is the iterated sum over t, g and l:
  regrouping a finite sum needs no finiteness of the summands.
-/
import Idealize.ShloMosaic.Lib.ValueIdx
import Idealize.ShloMosaic.PureOps.Ideal

noncomputable section

namespace Cert.GroupSum

open Idealize.ShloMosaic Idealize.ShloMosaic.ValueIdx
open scoped BigOperators

/-- The group of 128 rows that row `k` of the weights belongs to. -/
def grp (k : Fin 4096) : Fin 32 := ⟨k.val / 128, by have := k.isLt; omega⟩

/-- The dequantized weight at row `k`, column `q`: the stored integer minus the zero point 8, times the scale of
    the row's group in that column. -/
def weight (bq : (⟨2, ![4096, 12288]⟩ : Shape).Idx → BitVec 32) (s : (⟨2, ![32, 12288]⟩ : Shape).Idx → Ideal .f32)
    (k : Fin 4096) (q : Fin 12288) : Ideal .f32 :=
  (FloatOps.sitofp (F := Ideal) .f32 (bq (ix2 k q)) - Ideal.ofBits .f32 0x41000000#32) * s (ix2 (grp k) q)

/-- The product: entry `i = (p, q)` is the sum over the contracted index of `a[p, k] · w[k, q]`. -/
def G (a : (⟨2, ![4096, 4096]⟩ : Shape).Idx → Ideal .f32) (bq : (⟨2, ![4096, 12288]⟩ : Shape).Idx → BitVec 32)
    (s : (⟨2, ![32, 12288]⟩ : Shape).Idx → Ideal .f32) : (⟨2, ![4096, 12288]⟩ : Shape).Idx → Ideal .f32 :=
  fun i => ∑ k : Fin 4096, a (ix2 (i 0) k) * weight bq s k (i 1)

/-- The contracted index from its three digits: tile `t`, group `g` inside the tile, row `l` inside the group. -/
def kOf (t : Fin 4) (g : Fin 8) (l : Fin 128) : Fin 4096 :=
  ⟨1024 * t.val + 128 * g.val + l.val, by have := t.isLt; have := g.isLt; have := l.isLt; omega⟩

/-- The three digits of a contracted index, as a bijection. -/
def digits : Fin 4 × Fin 8 × Fin 128 ≃ Fin 4096 where
  toFun x := kOf x.1 x.2.1 x.2.2
  invFun k := (⟨k.val / 1024, by have := k.isLt; omega⟩, ⟨k.val % 1024 / 128, by have := k.isLt; omega⟩,
    ⟨k.val % 128, by omega⟩)
  left_inv x := by
    obtain ⟨t, g, l⟩ := x
    have := t.isLt; have := g.isLt; have := l.isLt
    refine Prod.ext (Fin.ext ?_) (Prod.ext (Fin.ext ?_) (Fin.ext ?_)) <;> simp only [kOf] <;> omega
  right_inv k := by
    apply Fin.ext
    simp only [kOf]
    omega

/-- A sum over the contracted index is the iterated sum over its digits, in any commutative monoid. -/
theorem sum_digits {M : Type*} [AddCommMonoid M] (f : Fin 4096 → M) :
    ∑ k : Fin 4096, f k = ∑ t : Fin 4, ∑ g : Fin 8, ∑ l : Fin 128, f (kOf t g l) := by
  rw [← Equiv.sum_comp digits f, Fintype.sum_prod_type]
  refine Finset.sum_congr rfl fun t _ => ?_
  rw [Fintype.sum_prod_type]
  rfl

/-- The group of the row with digits `(t, g, l)` is `8·t + g`. -/
theorem grp_kOf (t : Fin 4) (g : Fin 8) (l : Fin 128) :
    grp (kOf t g l) = ⟨8 * t.val + g.val, by have := t.isLt; have := g.isLt; omega⟩ := by
  apply Fin.ext
  have := l.isLt
  simp only [grp, kOf]
  omega

/-- The column of a 1024-wide tile that row `l` of group `g` sits in. -/
def colOf (g : Fin 8) (l : Fin 128) : Fin 1024 :=
  ⟨128 * g.val + l.val, by have := g.isLt; have := l.isLt; omega⟩

/-- One tile's share of entry `(p, q)`: the sum over the tile's eight groups and the 128 rows of each. -/
def tileSum (a : (⟨2, ![4096, 4096]⟩ : Shape).Idx → Ideal .f32) (bq : (⟨2, ![4096, 12288]⟩ : Shape).Idx → BitVec 32)
    (s : (⟨2, ![32, 12288]⟩ : Shape).Idx → Ideal .f32) (p : Fin 4096) (q : Fin 12288) (t : Fin 4) : Ideal .f32 :=
  ∑ g : Fin 8, ∑ l : Fin 128, a (ix2 p (kOf t g l)) * weight bq s (kOf t g l) q

/-- Entry `(p, q)` of the product is the sum of the four tiles' shares. -/
theorem G_eq_tiles (a : (⟨2, ![4096, 4096]⟩ : Shape).Idx → Ideal .f32) (bq : (⟨2, ![4096, 12288]⟩ : Shape).Idx → BitVec 32)
    (s : (⟨2, ![32, 12288]⟩ : Shape).Idx → Ideal .f32) (p : Fin 4096) (q : Fin 12288) :
    G a bq s (ix2 p q) = ∑ t : Fin 4, tileSum a bq s p q t :=
  sum_digits fun k => a (ix2 p k) * weight bq s k q

end Cert.GroupSum

end
-- ==== Proof.RefIsProduct.lean ====
/-
  The reference program computes the quantized matrix product.

  The reference builds the dequantized weights in five elementwise and layout steps and then contracts them with the
  activations. Read at one entry (p, q) of the result, the last step is the sum over the contracted index k of
  a[p, k] times the weight matrix at (k, q). That weight matrix is a reshape of a three-axis array back to two axes:
  the flat position k · 12288 + q is split as ((k / 128) · 128 + k % 128) · 12288 + q, so entry (k, q) of the matrix is
  entry (k / 128, k % 128, q) of the three-axis product. The first factor of that product is the reshape, in the other
  direction, of "stored integer as a real, minus 8": at (k / 128, k % 128, q) the flat position is again
  k · 12288 + q, so it reads the stored integer at (k, q). The second factor is the scales with a middle axis of
  length 128 inserted by repetition: at (k / 128, k % 128, q) it reads the scale at (k / 128, q), whatever the middle
  coordinate is. So the weight matrix at (k, q) is (int(bq[k, q]) − 8) · s[k / 128, q], which is the weight of the
  specification, and the two sums agree term by term. Over the extended reals the subtraction and the product of the
  program are the subtraction and the product of the specification by definition, so no law of arithmetic is used:
  the whole content is the three index identities below, each a statement about quotients and remainders by the
  literal extents.
-/
import proofs.«169174_j62637803045574_1_alg».proof.Proof.Gen.ReferenceIdeal.Read
import proofs.«169174_j62637803045574_1_alg».proof.Proof.GroupSum

noncomputable section

namespace Cert.RefValue

open Cert.ReferenceIdeal Cert.ReferenceIdeal.Read Cert.GroupSum Idealize.ShloMosaic Idealize.ShloMosaic.ValueIdx
open scoped BigOperators

/-- The contraction reads the activations at row `p` of the result entry and column `k`. -/
theorem left_index (p : Fin 4096) (q : Fin 12288) (k : Fin 4096) :
    lidx_main_v8 (ix2 p q) k = ix2 p k :=
  funext fun a => Fin.ext (by
    match a with
    | ⟨0, _⟩ => rfl
    | ⟨1, _⟩ => rfl)

/-- Going from entry `(k, q)` of the weight matrix to the three-axis array and back to the two-axis array of stored
    integers returns to `(k, q)`: both reshapes keep the flat position `k · 12288 + q`. -/
theorem stored_index (p : Fin 4096) (q : Fin 12288) (k : Fin 4096) :
    idx_main_v3 (idx_main_v7 (ridx_main_v8 (ix2 p q) k)) = ix2 k q :=
  funext fun a => Fin.ext (by
    have := k.isLt
    have := q.isLt
    match a with
    | ⟨0, _⟩ =>
      show (((k.val * 12288 + q.val) / 1572864 * 128 + (k.val * 12288 + q.val) / 12288 % 128) * 12288
        + (k.val * 12288 + q.val) % 12288) / 12288 = k.val
      omega
    | ⟨1, _⟩ =>
      show (((k.val * 12288 + q.val) / 1572864 * 128 + (k.val * 12288 + q.val) / 12288 % 128) * 12288
        + (k.val * 12288 + q.val) % 12288) % 12288 = q.val
      omega)

/-- Going from entry `(k, q)` of the weight matrix to the three-axis array and dropping the repeated middle axis
    lands on the scale of the group of row `k` in column `q`: the leading coordinate is
    `(k · 12288 + q) / (128 · 12288) = k / 128`. -/
theorem scale_index (p : Fin 4096) (q : Fin 12288) (k : Fin 4096) :
    idx_main_v4 (idx_main_v5 (idx_main_v7 (ridx_main_v8 (ix2 p q) k))) = ix2 (grp k) q :=
  funext fun a => Fin.ext (by
    have := k.isLt
    have := q.isLt
    match a with
    | ⟨0, _⟩ =>
      show (k.val * 12288 + q.val) / 1572864 = k.val / 128
      omega
    | ⟨1, _⟩ =>
      show (k.val * 12288 + q.val) % 12288 = q.val
      omega)

/-- The reference program's result, over the extended reals, is the specification: entry `(p, q)` is the sum over
    `k` of `a[p, k]` times the dequantized weight at `(k, q)`. -/
theorem ref_eq (x0 : (⟨Cert.ReferenceIdeal.S4096x4096, .f32⟩ : BufTy).Contents (Elt Ideal))
    (x1 : (⟨Cert.ReferenceIdeal.S4096x12288, .i32⟩ : BufTy).Contents (Elt Ideal))
    (x2 : (⟨Cert.ReferenceIdeal.S32x12288, .f32⟩ : BufTy).Contents (Elt Ideal)) :
    Cert.ReferenceIdeal.Read.val_main_v8 (F := Ideal) x0 x1 x2 = Cert.GroupSum.G x0 x1 x2 := by
  funext i
  obtain ⟨p, q, rfl⟩ : ∃ (p : Fin 4096) (q : Fin 12288), i = ix2 p q := ⟨i 0, i 1, eq_ix2 i⟩
  rw [val_main_v8_apply]
  unfold G
  refine Finset.sum_congr rfl fun k _ => ?_
  rw [left_index, val_main_v7_apply, val_main_v6_apply, val_main_v3_apply, val_main_v5_apply, val_main_v4_apply,
    val_main_v2_apply, val_main_v0_apply, val_main_v1_apply, val_main_cst_apply, stored_index, scale_index]
  rfl

end Cert.RefValue

end
-- ==== Proof.TileDef.lean ====
/-
  One grid point's arithmetic, as a pure function of the blocks it reads.

  At a grid point the body reads a 512 × 1024 block of `a`, a 1024 × 1024 block of the stored integers and an
  8 × 1024 block of the scales, and adds into the 512 × 1024 accumulator, one after the other, the products of
  the eight groups of 128 contracted rows: group `g` takes columns 128·g … 128·g + 127 of the `a` block, rows
  128·g … 128·g + 127 of the integer block (minus the zero point 8, times row `g` of the scales, spread over the
  128 rows) and multiplies them as matrices.
-/
import proofs.«169174_j62637803045574_1_alg».proof.Proof.Gen.KernelIdeal.Skeleton
import Idealize.ShloMosaic.Lib.Pipeline.FrameBody

noncomputable section

namespace Cert.KernelIdeal.Tile

open Cert.KernelIdeal Cert.KernelIdeal.Gen Idealize.ShloMosaic

variable {F : FTy → Type} [FloatOps F]

/-- One group: the accumulator plus the matrix product of a 512 × 128 piece of `a` with the dequantized
    128 × 1024 piece of the weights (the stored integers minus 8, times the group's row of scales). -/
def step (a : Vec F S512x128 .f32) (b : Vec F S128x1024 .i32) (s : Vec F S1x1024 .f32) (acc : Vec F S512x1024 .f32) :
    FVec F S512x1024 .f32 :=
  addf acc (matmul dot_S512x128_S128x1024_S512x1024_1_0_0_1_n_n none (truncf .bf16 a bitsLt_bf16_f32)
    (truncf .bf16 (mulf (subf (sitofp .f32 b) (broadcast S128x1024 (Scalar.ofBits .f32 0x41000000#32)))
      (broadcastTo S128x1024 s broadcasts_S1x1024_S128x1024)) bitsLt_bf16_f32)
    (constant S512x1024 .f32 0x00000000#32))

/-- The eight groups of one grid point, first to last, over what the accumulator held. -/
def body (acc : Vec F S512x1024 .f32) (x0 : Vec F S512x1024 .f32) (x1 : Vec F S1024x1024 .i32) (x2 : Vec F S8x1024 .f32) :
    FVec F S512x1024 .f32 :=
  step (View.ld x0 (Rect.unit ![0, 896] S512x128.size inb_S512x1024_S512x128_0_896)) (View.ld x1 (Rect.unit ![896, 0] S128x1024.size inb_S1024x1024_S128x1024_896_0)) (View.ld x2 (Rect.unit ![7, 0] S1x1024.size inb_S8x1024_S1x1024_7_0))
    (step (View.ld x0 (Rect.unit ![0, 768] S512x128.size inb_S512x1024_S512x128_0_768)) (View.ld x1 (Rect.unit ![768, 0] S128x1024.size inb_S1024x1024_S128x1024_768_0)) (View.ld x2 (Rect.unit ![6, 0] S1x1024.size inb_S8x1024_S1x1024_6_0))
    (step (View.ld x0 (Rect.unit ![0, 640] S512x128.size inb_S512x1024_S512x128_0_640)) (View.ld x1 (Rect.unit ![640, 0] S128x1024.size inb_S1024x1024_S128x1024_640_0)) (View.ld x2 (Rect.unit ![5, 0] S1x1024.size inb_S8x1024_S1x1024_5_0))
    (step (View.ld x0 (Rect.unit ![0, 512] S512x128.size inb_S512x1024_S512x128_0_512)) (View.ld x1 (Rect.unit ![512, 0] S128x1024.size inb_S1024x1024_S128x1024_512_0)) (View.ld x2 (Rect.unit ![4, 0] S1x1024.size inb_S8x1024_S1x1024_4_0))
    (step (View.ld x0 (Rect.unit ![0, 384] S512x128.size inb_S512x1024_S512x128_0_384)) (View.ld x1 (Rect.unit ![384, 0] S128x1024.size inb_S1024x1024_S128x1024_384_0)) (View.ld x2 (Rect.unit ![3, 0] S1x1024.size inb_S8x1024_S1x1024_3_0))
    (step (View.ld x0 (Rect.unit ![0, 256] S512x128.size inb_S512x1024_S512x128_0_256)) (View.ld x1 (Rect.unit ![256, 0] S128x1024.size inb_S1024x1024_S128x1024_256_0)) (View.ld x2 (Rect.unit ![2, 0] S1x1024.size inb_S8x1024_S1x1024_2_0))
    (step (View.ld x0 (Rect.unit ![0, 128] S512x128.size inb_S512x1024_S512x128_0_128)) (View.ld x1 (Rect.unit ![128, 0] S128x1024.size inb_S1024x1024_S128x1024_128_0)) (View.ld x2 (Rect.unit ![1, 0] S1x1024.size inb_S8x1024_S1x1024_1_0))
    (step (View.ld x0 (Rect.unit ![0, 0] S512x128.size inb_S512x1024_S512x128_0_0)) (View.ld x1 (Rect.unit ![0, 0] S128x1024.size inb_S1024x1024_S128x1024_0_0)) (View.ld x2 (Rect.unit ![0, 0] S1x1024.size inb_S8x1024_S1x1024_0_0))
    (acc))))))))

/-- The all-zero accumulator the first point of a run starts from. -/
def zero : Vec F S512x1024 .f32 := broadcast S512x1024 (Scalar.ofBits .f32 0x00000000#32)

end Cert.KernelIdeal.Tile

end
-- ==== Proof.TileRun.lean ====
/-
  What each control case of the body leaves behind, as a value.

  The body has three control cases: at the first point of a run of four (case A) it clears the accumulator and
  then adds the eight groups; at the middle points (case B) it adds the eight groups to what the point before left;
  at the last point (case C) it does the same and copies the accumulator to the output block. Each store covers the
  whole 512 × 1024 buffer, so a buffer ends holding its last store's value, and a load after a store reads that
  store's value: unwinding the eight store-then-load pairs gives the eight-group function of TileDef over the
  accumulator's contents at entry, with the zero block in its place in case A.
-/
import proofs.«169174_j62637803045574_1_alg».proof.Proof.Gen.KernelIdeal.Frame
import proofs.«169174_j62637803045574_1_alg».proof.Proof.TileDef
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

theorem hz : (![0, 0] : Fin 2 → Nat) = fun _ => 0 := funext fun a => by fin_cases a <;> rfl

/-- A load of the whole block after a store of the whole block (the last of any number of stores) reads what
    that store wrote. -/
theorem readCov_cons_whole {sig : RefSig} {κ : Kind} {sp : Space} {S : Shape} {e : EltTy}
    (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem pay2_eq (a : Vec F S512x128 .f32) (b : Vec F S128x1024 .i32) (s : Vec F S1x1024 .f32) (acc : Vec F S512x1024 .f32) :
    k0_pay2 a b s acc = step a b s acc := by
  unfold k0_pay2 step; simp only [shapeCast_self]
theorem pay43_eq (a : Vec F S512x128 .f32) (b : Vec F S128x1024 .i32) (s : Vec F S1x1024 .f32) (acc : Vec F S512x1024 .f32) :
    k0_pay4 acc (k0_pay3 a b s) = step a b s acc := by
  unfold k0_pay4 k0_pay3 step; simp only [shapeCast_self]
theorem pay5_eq (a : Vec F S512x128 .f32) (b : Vec F S128x1024 .i32) (s : Vec F S1x1024 .f32) (acc : Vec F S512x1024 .f32) :
    k0_pay5 a b s acc = step a b s acc := by
  unfold k0_pay5 step; simp only [shapeCast_self]
theorem pay76_eq (a : Vec F S512x128 .f32) (b : Vec F S128x1024 .i32) (s : Vec F S1x1024 .f32) (acc : Vec F S512x1024 .f32) :
    k0_pay7 (k0_pay6 a b s acc) = step a b s acc := by
  unfold k0_pay7 k0_pay6 step; simp only [shapeCast_self]
theorem pay8_eq (a : Vec F S512x128 .f32) (b : Vec F S128x1024 .i32) (s : Vec F S1x1024 .f32) (acc : Vec F S512x1024 .f32) :
    k0_pay8 a b s acc = step a b s acc := by
  unfold k0_pay8 step; simp only [shapeCast_self]
theorem pay109_eq (a : Vec F S512x128 .f32) (b : Vec F S128x1024 .i32) (s : Vec F S1x1024 .f32) (acc : Vec F S512x1024 .f32) :
    k0_pay10 (k0_pay9 a b s acc) = step a b s acc := by
  unfold k0_pay10 k0_pay9 step; simp only [shapeCast_self]
theorem pay11_eq (a : Vec F S512x128 .f32) (b : Vec F S128x1024 .i32) (s : Vec F S1x1024 .f32) (acc : Vec F S512x1024 .f32) :
    k0_pay11 a b s acc = step a b s acc := by
  unfold k0_pay11 step; simp only [shapeCast_self]
theorem pay12_eq (a : Vec F S512x128 .f32) (b : Vec F S128x1024 .i32) (s : Vec F S1x1024 .f32) (acc : Vec F S512x1024 .f32) :
    k0_pay12 a b s acc = step a b s acc := by
  unfold k0_pay12 step; simp only [shapeCast_self]
theorem pay1_eq : k0_pay1 (F := F) = zero := by
  unfold k0_pay1 zero; simp only [shapeCast_self]

/-- Case B (the middle points of a run): the accumulator ends at the eight groups added to what it held. -/
theorem sout_B (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .i32) (x2 : Vec F S8x1024 .f32) (xs0 : Vec F S512x1024 .f32) :
    sout0_B_0 c i arg3 harg3 arg4 harg4 arg5 harg5 arg6 harg6 arg7 harg7 hc0 hc1 x0 x1 x2 xs0 = body xs0 x0 x1 x2 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_cons_unit_zero (S := S512x1024) hz]
  simp only [readCov_cons_whole (F := F) (S := S512x1024) _ hz, View.readAt_eq_ld, harg3.read_unread, harg4.read_unread, harg5.read_unread, harg7.read_unread, View.ld_unit_zero (S := S512x1024) hz]
  rw [pay12_eq, pay11_eq, pay109_eq, pay8_eq, pay76_eq, pay5_eq, pay43_eq, pay2_eq]
  rfl

/-- Case C (the last point of a run): the accumulator ends at the eight groups added to what it held, -/
theorem sout_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .i32) (x2 : Vec F S8x1024 .f32) (xs0 : Vec F S512x1024 .f32) :
    sout0_C_0 c i arg3 harg3 arg4 harg4 arg5 harg5 arg6 harg6 arg7 harg7 hc0 hc1 x0 x1 x2 xs0 = body xs0 x0 x1 x2 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_cons_unit_zero (S := S512x1024) hz]
  simp only [readCov_cons_whole (F := F) (S := S512x1024) _ hz, View.readAt_eq_ld, harg3.read_unread, harg4.read_unread, harg5.read_unread, harg7.read_unread, View.ld_unit_zero (S := S512x1024) hz]
  rw [pay12_eq, pay11_eq, pay109_eq, pay8_eq, pay76_eq, pay5_eq, pay43_eq, pay2_eq]
  rfl

/-- and the output block is a copy of it. -/
theorem out_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .i32) (x2 : Vec F S8x1024 .f32) (xs0 : Vec F S512x1024 .f32) :
    out0_C_3 c i arg3 harg3 arg4 harg4 arg5 harg5 arg6 harg6 arg7 harg7 hc0 hc1 x0 x1 x2 xs0 = body xs0 x0 x1 x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_cons_unit_zero (S := S512x1024) hz]
  simp only [readCov_cons_whole (F := F) (S := S512x1024) _ hz, View.readAt_eq_ld, harg3.read_unread, harg4.read_unread, harg5.read_unread, harg7.read_unread, View.ld_unit_zero (S := S512x1024) hz]
  rw [pay12_eq, pay11_eq, pay109_eq, pay8_eq, pay76_eq, pay5_eq, pay43_eq, pay2_eq]
  rfl

/-- Case A (the first point of a run): the accumulator is cleared first, so it ends at the eight groups added to
    the zero block, whatever it held. -/
theorem sout_A (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S8x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .i32) (x2 : Vec F S8x1024 .f32) :
    sout0_A_0 c i arg3 harg3 arg4 harg4 arg5 harg5 arg6 harg6 arg7 harg7 hc0 hc1 x0 x1 x2 = body zero x0 x1 x2 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz]
  simp only [readCov_cons_whole (F := F) (S := S512x1024) _ hz, View.readAt_eq_ld, harg3.read_unread, harg4.read_unread, harg5.read_unread, harg7.read_unread, View.ld_unit_zero (S := S512x1024) hz]
  rw [pay12_eq, pay11_eq, pay109_eq, pay8_eq, pay76_eq, pay5_eq, pay43_eq, pay2_eq]
  rw [pay1_eq]
  rfl

end Cert.KernelIdeal.Tile

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.TileIdeal.lean ====
/-
  One grid point's arithmetic read at an entry, over the extended reals.

  A group step adds to the accumulator the matrix product of a 512 × 128 piece of the activations with a 128 × 1024
  piece of dequantized weights. Over the extended reals the narrowing of both factors before the product is the
  identity, the product into a zero block is the textbook sum over the 128 contracted positions, the subtraction and
  the products are the extended reals' own, and the one row of scales repeated over 128 rows reads, at any row, the
  scale of the entry's column. So at entry (r, c) a step adds  Σ_l a[r, l] · ((int(b[l, c]) − 8) · s[0, c]).

  The pieces a grid point feeds to its eight steps are windows of the three blocks it holds: group g takes columns
  128·g … 128·g + 127 of the activations' block, rows 128·g … 128·g + 127 of the stored integers' block and row g of
  the scales' block, so position l of the group is column, respectively row, 128·g + l of the block. Chaining the
  eight steps gives the accumulator plus eight sums added one after the other; since addition of extended reals is
  associative, that is the accumulator plus the sum over the groups of the groups' sums. No finiteness is used.
-/
import proofs.«169174_j62637803045574_1_alg».proof.Proof.TileDef
import proofs.«169174_j62637803045574_1_alg».proof.Proof.GroupSum
import proofs.«169174_j62637803045574_1_alg».proof.Proof.LibMatmulRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Cert.GroupSum Idealize.ShloMosaic Idealize.ShloMosaic.ValueIdx
open scoped BigOperators

/-- The one row of scales repeated over the 128 rows of a group reads, at row `l` and column `c`, the scale of
    column `c`: the repeated axis has extent one in the source, so its coordinate there is `0`. -/
theorem spread_row (s : Vec Ideal S1x1024 .f32) (l : Fin 128) (c : Fin 1024) :
    broadcastTo S128x1024 s broadcasts_S1x1024_S128x1024 (ix2 l c) = s (ix2 0 c) :=
  broadcastTo_apply s broadcasts_S1x1024_S128x1024 (ix2 l c) (ix2 0 c) (fun ax => by
    match ax with
    | ⟨0, _⟩ => show (0 : Nat) = if (1 : Nat) = 1 then 0 else l.val; rw [if_pos rfl]
    | ⟨1, _⟩ => show c.val = if (1024 : Nat) = 1 then 0 else c.val; rw [if_neg (by decide)])

/-- One group step at entry `(r, c)`: the accumulator plus the sum over the group's 128 positions of the
    activation times the dequantized weight. -/
theorem step_apply (a : Vec Ideal S512x128 .f32) (b : Vec Ideal S128x1024 .i32) (s : Vec Ideal S1x1024 .f32)
    (acc : Vec Ideal S512x1024 .f32) (r : Fin 512) (c : Fin 1024) :
    step (F := Ideal) a b s acc (ix2 r c)
      = acc (ix2 r c) + ∑ l : Fin 128, a (ix2 r l) * ((FloatOps.sitofp (F := Ideal) .f32 (b (ix2 l c)) - Ideal.ofBits .f32 0x41000000#32) * s (ix2 0 c)) := by
  unfold step
  refine congrArg (fun z => acc (ix2 r c) + z) ?_
  refine (MatmulRead.matmul_zero_ix2 (a := 512) (K := 128) (b := 1024) (D := dot_S512x128_S128x1024_S512x1024_1_0_0_1_n_n)
    ⟨rfl, rfl, rfl, rfl, rfl, rfl⟩ rfl rfl none _ _ r c).trans ?_
  refine Finset.sum_congr rfl fun l _ => ?_
  show a (ix2 r l) * ((FloatOps.sitofp (F := Ideal) .f32 (b (ix2 l c)) - Ideal.ofBits .f32 0x41000000#32)
      * broadcastTo S128x1024 s broadcasts_S1x1024_S128x1024 (ix2 l c)) = _
  rw [spread_row]

/-- The window of the activations' block that starts at column `128·g`: its entry `(r, l)` is the block's entry
    `(r, 128·g + l)`. -/
theorem ld_cols (x0 : Vec Ideal S512x1024 .f32) (g : Fin 8) (o : Fin 2 → Nat)
    (inb : ∀ a, o a + S512x128.size a ≤ S512x1024.size a) (h0 : o 0 = 0) (h1 : o 1 = 128 * g.val)
    (r : Fin 512) (l : Fin 128) :
    View.ld x0 (Rect.unit o S512x128.size inb) (ix2 r l) = x0 (ix2 r (colOf g l)) :=
  congrArg x0 (funext fun ax => Fin.ext (by
    match ax with
    | ⟨0, _⟩ => show o 0 + 1 * r.val = r.val; omega
    | ⟨1, _⟩ => show o 1 + 1 * l.val = 128 * g.val + l.val; omega))

/-- The window of the stored integers' block that starts at row `128·g`: its entry `(l, c)` is the block's entry
    `(128·g + l, c)`. -/
theorem ld_rows (x1 : Vec Ideal S1024x1024 .i32) (g : Fin 8) (o : Fin 2 → Nat)
    (inb : ∀ a, o a + S128x1024.size a ≤ S1024x1024.size a) (h0 : o 0 = 128 * g.val) (h1 : o 1 = 0)
    (l : Fin 128) (c : Fin 1024) :
    View.ld x1 (Rect.unit o S128x1024.size inb) (ix2 l c) = x1 (ix2 (colOf g l) c) :=
  congrArg x1 (funext fun ax => Fin.ext (by
    match ax with
    | ⟨0, _⟩ => show o 0 + 1 * l.val = 128 * g.val + l.val; omega
    | ⟨1, _⟩ => show o 1 + 1 * c.val = c.val; omega))

/-- The one-row window of the scales' block at row `g`: its entry `(0, c)` is the block's entry `(g, c)`. -/
theorem ld_scale (x2 : Vec Ideal S8x1024 .f32) (g : Fin 8) (o : Fin 2 → Nat)
    (inb : ∀ a, o a + S1x1024.size a ≤ S8x1024.size a) (h0 : o 0 = g.val) (h1 : o 1 = 0) (c : Fin 1024) :
    View.ld x2 (Rect.unit o S1x1024.size inb) (ix2 0 c) = x2 (ix2 g c) :=
  congrArg x2 (funext fun ax => Fin.ext (by
    match ax with
    | ⟨0, _⟩ => show o 0 + 1 * 0 = g.val; omega
    | ⟨1, _⟩ => show o 1 + 1 * c.val = c.val; omega))

/-- The step of group `g` on the three windows, at entry `(r, c)`, in terms of the blocks themselves. -/
theorem group_apply (x0 : Vec Ideal S512x1024 .f32) (x1 : Vec Ideal S1024x1024 .i32) (x2 : Vec Ideal S8x1024 .f32)
    (g : Fin 8) (oa ob os : Fin 2 → Nat)
    (ia : ∀ a, oa a + S512x128.size a ≤ S512x1024.size a) (ib : ∀ a, ob a + S128x1024.size a ≤ S1024x1024.size a)
    (is : ∀ a, os a + S1x1024.size a ≤ S8x1024.size a)
    (ha0 : oa 0 = 0) (ha1 : oa 1 = 128 * g.val) (hb0 : ob 0 = 128 * g.val) (hb1 : ob 1 = 0)
    (hs0 : os 0 = g.val) (hs1 : os 1 = 0)
    (acc : Vec Ideal S512x1024 .f32) (r : Fin 512) (c : Fin 1024) :
    step (F := Ideal) (View.ld x0 (Rect.unit oa S512x128.size ia)) (View.ld x1 (Rect.unit ob S128x1024.size ib))
        (View.ld x2 (Rect.unit os S1x1024.size is)) acc (ix2 r c)
      = acc (ix2 r c) + ∑ l : Fin 128, x0 (ix2 r (colOf g l)) * ((FloatOps.sitofp (F := Ideal) .f32 (x1 (ix2 (colOf g l) c)) - Ideal.ofBits .f32 0x41000000#32) * x2 (ix2 g c)) := by
  refine (step_apply _ _ _ acc r c).trans ?_
  refine congrArg (fun z => acc (ix2 r c) + z) (Finset.sum_congr rfl fun l _ => ?_)
  rw [ld_cols x0 g oa ia ha0 ha1 r l, ld_rows x1 g ob ib hb0 hb1 l c, ld_scale x2 g os is hs0 hs1 c]

/-- One grid point at entry `(r, c)`: what the accumulator held plus, over the eight groups and the 128 positions
    of each, the activation times the dequantized weight. -/
theorem body_apply (acc x0 : Vec Ideal S512x1024 .f32) (x1 : Vec Ideal S1024x1024 .i32) (x2 : Vec Ideal S8x1024 .f32) (r : Fin 512) (c : Fin 1024) :
    body (F := Ideal) acc x0 x1 x2 (ix2 r c)
      = acc (ix2 r c) + ∑ g : Fin 8, ∑ l : Fin 128, x0 (ix2 r (colOf g l)) * ((FloatOps.sitofp (F := Ideal) .f32 (x1 (ix2 (colOf g l) c)) - Ideal.ofBits .f32 0x41000000#32) * x2 (ix2 g c)) := by
  unfold body
  rw [group_apply x0 x1 x2 7 _ _ _ _ _ _ rfl rfl rfl rfl rfl rfl,
    group_apply x0 x1 x2 6 _ _ _ _ _ _ rfl rfl rfl rfl rfl rfl,
    group_apply x0 x1 x2 5 _ _ _ _ _ _ rfl rfl rfl rfl rfl rfl,
    group_apply x0 x1 x2 4 _ _ _ _ _ _ rfl rfl rfl rfl rfl rfl,
    group_apply x0 x1 x2 3 _ _ _ _ _ _ rfl rfl rfl rfl rfl rfl,
    group_apply x0 x1 x2 2 _ _ _ _ _ _ rfl rfl rfl rfl rfl rfl,
    group_apply x0 x1 x2 1 _ _ _ _ _ _ rfl rfl rfl rfl rfl rfl,
    group_apply x0 x1 x2 0 _ _ _ _ _ _ rfl rfl rfl rfl rfl rfl,
    Fin.sum_univ_eight]
  simp only [add_assoc]

/-- The block a run starts from is zero at every entry: its word is the zero word. -/
theorem zero_apply (i : S512x1024.Idx) : zero (F := Ideal) i = 0 := Ideal.ofBits_zero_f32

end Cert.KernelIdeal.Tile

end
-- ==== Proof.Blocks.lean ====
/-
  Where each block sits in its array.

  The grid has 8 × 12 × 4 points, numbered  t = 48·i + 4·j + k  (row tile i, column tile j, contraction tile k).
  At point t the block of `a` is rows 512·i … and columns 1024·k …; the block of the stored integers is rows
  1024·k … and columns 1024·j …; the block of the scales is rows 8·k … and columns 1024·j …; the output block is
  rows 512·i … and columns 1024·j …. So entry (r, x) of a block is the array's entry at the block's corner plus
  (r, x), and the eight groups of the point's contraction tile are the groups 8·k … 8·k + 7 of the specification:
  one point adds tile k's share of entry (512·i + r, 1024·j + c) to the accumulator.
-/
import proofs.«169174_j62637803045574_1_alg».proof.Proof.Gen.KernelIdeal.Frame
import proofs.«169174_j62637803045574_1_alg».proof.Proof.TileIdeal
import proofs.«169174_j62637803045574_1_alg».proof.Proof.GroupSum

set_option maxRecDepth 16384

noncomputable section

open Idealize.ShloMosaic Idealize.ShloMosaic.TcCoe Idealize.SL.Sem

namespace Cert.KernelIdeal.Tile

open Cert.KernelIdeal Cert.KernelIdeal.Gen Cert.GroupSum Idealize.ShloMosaic.ValueIdx
open scoped BigOperators

/-- The printed index maps in closed form, decided over the 384 grid points. -/
theorem idx_facts : ∀ t : Fin cfg0.N,
    win0_0.index t (0 : Fin 2) = t.val / 48 ∧ win0_0.index t (1 : Fin 2) = t.val % 4
    ∧ win0_1.index t (0 : Fin 2) = t.val % 4 ∧ win0_1.index t (1 : Fin 2) = t.val / 4 % 12
    ∧ win0_2.index t (0 : Fin 2) = t.val % 4 ∧ win0_2.index t (1 : Fin 2) = t.val / 4 % 12
    ∧ win0_3.index t (0 : Fin 2) = t.val / 48 ∧ win0_3.index t (1 : Fin 2) = t.val / 4 % 12 :=
  (by decide +kernel : ∀ t : Fin grid0.N, _)

/-- Row `r` of the row tile of point `n`, in the 4096 rows of `a` and of the result. -/
def rowAt (n : ℕ) (r : Fin 512) : Fin 4096 := ⟨512 * (n / 48 % 8) + r.val, by have := r.isLt; omega⟩
/-- Column `c` of the column tile of point `n`, in the 12288 columns of the weights and of the result. -/
def colAt (n : ℕ) (c : Fin 1024) : Fin 12288 := ⟨1024 * (n / 4 % 12) + c.val, by have := c.isLt; omega⟩
/-- The contraction tile of point `n`. -/
def tileAt (n : ℕ) : Fin 4 := ⟨n % 4, Nat.mod_lt _ (by decide)⟩

variable (m : (ℓ : Loc nD τ sig) → Buf (Elt Ideal) ℓ)

/-- The block of `a` at point `t`, read at `(r, x)`. -/
theorem iblk0_apply (c : Dev nD) (t : Fin cfg0.N) (r : Fin 512) (x : Fin 1024) :
    (iblk m c 0 t : Vec Ideal S512x1024 .f32) (ix2 r x)
      = m ((c : Thread nD τ).loc main_arg0) (ix2 (rowAt t.val r) ⟨1024 * (t.val % 4) + x.val, by have := x.isLt; omega⟩) := by
  obtain ⟨e0, e1, -⟩ := idx_facts t
  have hN : t.val < 384 := lt_of_lt_of_eq t.isLt (show cfg0.N = 384 from N_0)
  show V m c main_arg0 (((cfg0.win 0).blk t).view.emb (ix2 r x)) = _
  refine congrArg (m ((c : Thread nD τ).loc main_arg0)) (funext fun a => Fin.ext ?_)
  match a with
  | ⟨0, _⟩ => show win0_0.index t (0 : Fin 2) * 512 + 1 * r.val = 512 * (t.val / 48 % 8) + r.val; rw [e0]; omega
  | ⟨1, _⟩ => show win0_0.index t (1 : Fin 2) * 1024 + 1 * x.val = 1024 * (t.val % 4) + x.val; rw [e1]; omega

/-- The block of the stored integers at point `t`, read at `(x, cc)`. -/
theorem iblk1_apply (c : Dev nD) (t : Fin cfg0.N) (x : Fin 1024) (cc : Fin 1024) :
    (iblk m c 1 t : Vec Ideal S1024x1024 .i32) (ix2 x cc)
      = m ((c : Thread nD τ).loc main_arg1) (ix2 (⟨1024 * (t.val % 4) + x.val, by have := x.isLt; omega⟩ : Fin 4096) (colAt t.val cc)) := by
  obtain ⟨-, -, e0, e1, -⟩ := idx_facts t
  show V m c main_arg1 (((cfg0.win 1).blk t).view.emb (ix2 x cc)) = _
  refine congrArg (m ((c : Thread nD τ).loc main_arg1)) (funext fun a => Fin.ext ?_)
  match a with
  | ⟨0, _⟩ => show win0_1.index t (0 : Fin 2) * 1024 + 1 * x.val = 1024 * (t.val % 4) + x.val; rw [e0]; omega
  | ⟨1, _⟩ => show win0_1.index t (1 : Fin 2) * 1024 + 1 * cc.val = 1024 * (t.val / 4 % 12) + cc.val; rw [e1]; omega

/-- The block of the scales at point `t`, read at `(g, cc)`. -/
theorem iblk2_apply (c : Dev nD) (t : Fin cfg0.N) (g : Fin 8) (cc : Fin 1024) :
    (iblk m c 2 t : Vec Ideal S8x1024 .f32) (ix2 g cc)
      = m ((c : Thread nD τ).loc main_arg2) (ix2 (⟨8 * (t.val % 4) + g.val, by have := g.isLt; omega⟩ : Fin 32) (colAt t.val cc)) := by
  obtain ⟨-, -, -, -, e0, e1, -⟩ := idx_facts t
  show V m c main_arg2 (((cfg0.win 2).blk t).view.emb (ix2 g cc)) = _
  refine congrArg (m ((c : Thread nD τ).loc main_arg2)) (funext fun a => Fin.ext ?_)
  match a with
  | ⟨0, _⟩ => show win0_2.index t (0 : Fin 2) * 8 + 1 * g.val = 8 * (t.val % 4) + g.val; rw [e0]; omega
  | ⟨1, _⟩ => show win0_2.index t (1 : Fin 2) * 1024 + 1 * cc.val = 1024 * (t.val / 4 % 12) + cc.val; rw [e1]; omega

/-- ONE POINT'S WORK: over any accumulator, the eight groups of point `t` add tile `t % 4`'s share of the entry
    the block position `(r, cc)` stands for. -/
theorem body_point (c : Dev nD) (t : Fin cfg0.N) (acc : Vec Ideal S512x1024 .f32) (r : Fin 512) (cc : Fin 1024) :
    body (F := Ideal) acc (iblk m c 0 t) (iblk m c 1 t) (iblk m c 2 t) (ix2 r cc)
      = acc (ix2 r cc) + tileSum (m ((c : Thread nD τ).loc main_arg0)) (m ((c : Thread nD τ).loc main_arg1))
          (m ((c : Thread nD τ).loc main_arg2)) (rowAt t.val r) (colAt t.val cc) (tileAt t.val) := by
  refine (body_apply acc (iblk m c 0 t) (iblk m c 1 t) (iblk m c 2 t) r cc).trans ?_
  refine congrArg (acc (ix2 r cc) + ·) ?_
  unfold tileSum
  refine Finset.sum_congr rfl fun g _ => Finset.sum_congr rfl fun l _ => ?_
  have hg := g.isLt; have hl := l.isLt
  have hk : (⟨1024 * (t.val % 4) + (colOf g l).val, by have := (colOf g l).isLt; omega⟩ : Fin 4096) = kOf (tileAt t.val) g l :=
    Fin.ext (by simp only [colOf, kOf, tileAt]; omega)
  have hs : (⟨8 * (t.val % 4) + g.val, by omega⟩ : Fin 32) = grp (kOf (tileAt t.val) g l) := by
    rw [grp_kOf]; rfl
  rw [iblk0_apply, iblk1_apply, iblk2_apply, hk, hs]
  rfl

end Cert.KernelIdeal.Tile

end
-- ==== Proof.Fold.lean ====
/-
  From the points' work to the result array.

  A run is four consecutive grid points sharing a row tile and a column tile. Its first point clears the accumulator
  and adds tile 0's share, the next three add tiles 1, 2, 3; so after the run's last point the accumulator holds, at
  block position (r, c), zero plus the four tiles' shares of entry (512·i + r, 1024·j + c): that entry of the
  product. The last point copies the accumulator to the output block, and only the last points write their block
  back; the 96 blocks written back tile the 4096 × 12288 result, so the result array ends as the product.
-/
import proofs.«169174_j62637803045574_1_alg».proof.Proof.Gen.KernelIdeal.Value
import proofs.«169174_j62637803045574_1_alg».proof.Proof.TileRun
import proofs.«169174_j62637803045574_1_alg».proof.Proof.Blocks

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.GroupSum Idealize.ShloMosaic.ValueIdx
open scoped BigOperators

variable (m : (ℓ : Loc nD τ sig) → Buf (Elt Ideal) ℓ) (ρ : Dev nD → PrngReg)

/-- The product of core `c`'s three argument arrays. -/
def result (c : Dev nD) : Buf (Elt Ideal) ((c : Thread nD τ).loc main_v0) :=
  G (m ((c : Thread nD τ).loc main_arg0)) (m ((c : Thread nD τ).loc main_arg1)) (m ((c : Thread nD τ).loc main_arg2))

/-- What point `n` adds to the accumulator at a block position: its tile's share of the entry there. -/
def addend (c : Dev nD) (n : ℕ) (i : S512x1024.Idx) : Ideal .f32 :=
  tileSum (m ((c : Thread nD τ).loc main_arg0)) (m ((c : Thread nD τ).loc main_arg1)) (m ((c : Thread nD τ).loc main_arg2)) (rowAt n (i 0)) (colAt n (i 1)) (tileAt n)

/-- The accumulator after point `n`, over what it held: a point at the start of a run (n ≡ 0 mod 4) starts from
    zero, any other from what it held; either adds the point's share. -/
theorem scAt_apply (c : Dev nD) (n : ℕ) (hb : n < cfg0.N) (acc : Vec Ideal S512x1024 .f32) (r : Fin 512) (cc : Fin 1024) :
    Value.scAt0_0 m c n hb acc (ix2 r cc)
      = (if n % 4 = 0 then (0 : EReal) else acc (ix2 r cc)) + addend m c n (ix2 r cc) := by
  have hN : n < 384 := lt_of_lt_of_eq hb (show cfg0.N = 384 from N_0)
  unfold Value.scAt0_0
  by_cases h0 : n % 4 = 0
  · have h1 : ¬ n % 4 = 3 := by omega
    rw [dif_pos h0, dif_neg h1, if_pos h0]
    refine (congrFun (sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))) (ix2 r cc)).trans ?_
    refine (body_point m c ⟨n, hb⟩ zero r cc).trans ?_
    rw [zero_apply]
    rfl
  · rw [dif_neg h0, if_neg h0]
    by_cases h1 : n % 4 = 3
    · rw [dif_pos h1]
      refine (congrFun (sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 r cc)).trans ?_
      exact body_point m c ⟨n, hb⟩ acc r cc
    · rw [dif_neg h1]
      refine (congrFun (sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 r cc)).trans ?_
      exact body_point m c ⟨n, hb⟩ acc r cc

/-- The accumulator `j ≤ 3` points into the run that starts at `b`: zero plus the shares of points `b … b + j`. -/
theorem acc_fold (c : Dev nD) (b j : ℕ) (hb4 : b % 4 = 0) (hj : j ≤ 3) (h : b + j < cfg0.N) (i : S512x1024.Idx) :
    Pipeline.accAt (fun n h => Value.scAt0_0 m c n h (VS0_0.read (Elt Ideal) VS0_0.junk)) (Value.scAt0_0 m c) b j h i
      = (0 : EReal) + ∑ s ∈ Finset.range (j + 1), addend m c (b + s) i := by
  refine Pipeline.accAt_add_apply (fun n h => Value.scAt0_0 m c n h (VS0_0.read (Elt Ideal) VS0_0.junk)) (Value.scAt0_0 m c)
    (fun _ => (0 : EReal)) (addend m c) b 3 ?_ ?_ j hj h i
  · intro h i
    obtain ⟨r, cc, rfl⟩ : ∃ (r : Fin 512) (cc : Fin 1024), i = ix2 r cc := ⟨i 0, i 1, eq_ix2 i⟩
    refine (scAt_apply m c b h _ r cc).trans ?_
    rw [if_pos hb4]
  · intro n h acc i h1 h2
    obtain ⟨r, cc, rfl⟩ : ∃ (r : Fin 512) (cc : Fin 1024), i = ix2 r cc := ⟨i 0, i 1, eq_ix2 i⟩
    refine (scAt_apply m c n h acc r cc).trans ?_
    rw [if_neg (by omega)]

/-- AFTER THE LAST POINT OF A RUN the accumulator holds the product's entries of the run's block. -/
theorem scratch_at_last (c : Dev nD) (t : Fin cfg0.N) (h3 : t.val % 4 = 3) (r : Fin 512) (cc : Fin 1024) :
    (outsAt0 m c t.val t.isLt).2 (ix2 r cc) = result m c (ix2 (rowAt t.val r) (colAt t.val cc)) := by
  have hN : t.val < 384 := lt_of_lt_of_eq t.isLt (show cfg0.N = 384 from N_0)
  rw [Value.soutsAt0_0_eq m c t, acc_fold m c _ _ (by omega) (by omega), h3, zero_add, Finset.sum_range]
  unfold result
  rw [G_eq_tiles]
  refine Finset.sum_congr rfl fun s _ => ?_
  have hs := s.isLt
  unfold addend
  have e1 : rowAt (4 * (t.val / 4) + s.val) r = rowAt t.val r := Fin.ext (by simp only [rowAt]; omega)
  have e2 : colAt (4 * (t.val / 4) + s.val) cc = colAt t.val cc := Fin.ext (by simp only [colAt]; omega)
  have e3 : tileAt (4 * (t.val / 4) + s.val) = s := Fin.ext (by simp only [tileAt]; omega)
  show tileSum _ _ _ (rowAt (4 * (t.val / 4) + s.val) r) (colAt (4 * (t.val / 4) + s.val) cc) (tileAt (4 * (t.val / 4) + s.val)) = _
  rw [e1, e2, e3]

/-- At the last point of a run the output block is a copy of the accumulator. -/
theorem out_eq_scratch (c : Dev nD) (t : Fin cfg0.N) (h0 : ¬ t.val % 4 = 0) (h3 : t.val % 4 = 3) :
    (outsAt0 m c t.val t.isLt).1 = (outsAt0 m c t.val t.isLt).2 := by
  rw [outsAt0_C m c t h0 h3]
  dsimp only
  exact (out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans (sout_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm

/-- WHAT A WRITING POINT WRITES BACK is its block of the product. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 384 := lt_of_lt_of_eq t.isLt (show cfg0.N = 384 from N_0)
  rw [Value.flushed3 m c t, out_eq_scratch m c t (by omega) h3]
  funext y
  obtain ⟨r, cc, rfl⟩ : ∃ (r : Fin 512) (cc : Fin 1024), y = ix2 r cc := ⟨y 0, y 1, eq_ix2 y⟩
  rw [View.read_apply]
  show (outsAt0 m c t.val t.isLt).2 (ix2 r cc) = result m c (((cfg0.win 3).blk t).view.emb (ix2 r cc))
  rw [scratch_at_last m c t h3 r cc]
  obtain ⟨-, -, -, -, -, -, e0, e1⟩ := idx_facts t
  refine congrArg (result m c) (funext fun a => Fin.ext ?_)
  match a with
  | ⟨0, _⟩ => show 512 * (t.val / 48 % 8) + r.val = win0_3.index t (0 : Fin 2) * 512 + 1 * r.val; rw [e0]; omega
  | ⟨1, _⟩ => show 1024 * (t.val / 4 % 12) + cc.val = win0_3.index t (1 : Fin 2) * 1024 + 1 * cc.val; rw [e1]; omega

/-- An index of the result is in point `t`'s block iff each coordinate is in the block's range on its axis. -/
theorem mem_blk (t : Fin cfg0.N) (i : S4096x12288.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Every entry of the result lies in the block of the last point of some run: row tile `i₀ / 512`, column tile
    `i₁ / 1024`. -/
theorem covered (i : S4096x12288.Idx) :
    ∃ t : Fin cfg0.N, (cfg0.win 3).flush t = true ∧ i ∈ ((cfg0.win 3).blk t).view.set := by
  have h0 : (i 0).val < 4096 := (i 0).isLt
  have h1 : (i 1).val < 12288 := (i 1).isLt
  have hN : cfg0.N = 384 := N_0
  have ht : 48 * ((i 0).val / 512) + 4 * ((i 1).val / 1024) + 3 < cfg0.N := by rw [hN]; omega
  refine ⟨⟨48 * ((i 0).val / 512) + 4 * ((i 1).val / 1024) + 3, ht⟩, (flush0_3 _).mpr (by show (48 * ((i 0).val / 512) + 4 * ((i 1).val / 1024) + 3) % 4 = 3; omega), ?_⟩
  obtain ⟨-, -, -, -, -, -, e0, e1⟩ := idx_facts ⟨48 * ((i 0).val / 512) + 4 * ((i 1).val / 1024) + 3, ht⟩
  rw [mem_blk]
  intro a
  match a with
  | ⟨0, _⟩ =>
    show win0_3.index _ (0 : Fin 2) * 512 ≤ (i 0).val ∧ (i 0).val < win0_3.index _ (0 : Fin 2) * 512 + 512
    rw [e0]
    show (48 * ((i 0).val / 512) + 4 * ((i 1).val / 1024) + 3) / 48 * 512 ≤ (i 0).val ∧ (i 0).val < (48 * ((i 0).val / 512) + 4 * ((i 1).val / 1024) + 3) / 48 * 512 + 512
    omega
  | ⟨1, _⟩ =>
    show win0_3.index _ (1 : Fin 2) * 1024 ≤ (i 1).val ∧ (i 1).val < win0_3.index _ (1 : Fin 2) * 1024 + 1024
    rw [e1]
    show (48 * ((i 0).val / 512) + 4 * ((i 1).val / 1024) + 3) / 4 % 12 * 1024 ≤ (i 1).val ∧ (i 1).val < (48 * ((i 0).val / 512) + 4 * ((i 1).val / 1024) + 3) / 4 % 12 * 1024 + 1024
    omega

/-- THE RESULT ARRAY after the run is the product. -/
theorem final (c : Dev nD) : (dats m 0 c).arrAt 3 cfg0.N = result m c :=
  (dats m 0 c).arrAt_eq_of_cover 3 (result m c) (flushed_eq m c) covered

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tile

end
-- ==== Proof.lean ====
/-
  A 4-bit-quantized matrix product, tiled, against its plain statement.

  The kernel multiplies `a` (4096 × 4096) by dequantized weights (4096 × 12288): the weight at (k, q) is the stored
  integer minus the zero point 8, times one scale per group of 128 consecutive rows and per column. It walks a grid
  of 8 × 12 × 4 tiles; for an output tile it clears an accumulator, adds over the four contraction tiles — and inside
  each over eight groups of 128 rows — the product of a 512 × 128 piece of `a` with the dequantized 128 × 1024
  piece of the weights, and writes the accumulator out after the fourth tile. The reference dequantizes the whole
  weight matrix (a reshape to groups, a broadcast of the scales, a reshape back) and takes one matrix product.

  Over the extended reals both are, at entry (p, q), the sum over the 4096 contracted indices of
  a[p, k] · (int(bq[k, q]) − 8) · s[k / 128, q]: the reference as one sum, the kernel as zero plus the sum split by
  tile, group and row and added in that order. The two agree because addition of extended reals is commutative and
  associative with zero its unit: no finiteness of the inputs is used. The idealization rewrote nothing in the
  kernel, so the third claim is trivial; the three frame claims are the generated runs.
-/
import proofs.«169174_j62637803045574_1_alg».proof.Defs
import proofs.«169174_j62637803045574_1_alg».proof.Proof.Gen.Kernel
import proofs.«169174_j62637803045574_1_alg».proof.Proof.Gen.Kernel.Skeleton
import proofs.«169174_j62637803045574_1_alg».proof.Proof.Gen.Kernel.Launch
import proofs.«169174_j62637803045574_1_alg».proof.Proof.Gen.Kernel.Points
import proofs.«169174_j62637803045574_1_alg».proof.Proof.Gen.Kernel.Frame
import proofs.«169174_j62637803045574_1_alg».proof.Proof.Gen.KernelIdeal
import proofs.«169174_j62637803045574_1_alg».proof.Proof.Gen.KernelIdeal.Skeleton
import proofs.«169174_j62637803045574_1_alg».proof.Proof.Gen.KernelIdeal.Launch
import proofs.«169174_j62637803045574_1_alg».proof.Proof.Gen.KernelIdeal.Points
import proofs.«169174_j62637803045574_1_alg».proof.Proof.Gen.KernelIdeal.Frame
import proofs.«169174_j62637803045574_1_alg».proof.Proof.Gen.ReferenceIdeal
import proofs.«169174_j62637803045574_1_alg».proof.Proof.Gen.Pre_finite_inputs
import proofs.«169174_j62637803045574_1_alg».proof.Proof.Gen.KernelIdeal.Value
import proofs.«169174_j62637803045574_1_alg».proof.Proof.Gen.ReferenceIdeal.Run
import proofs.«169174_j62637803045574_1_alg».proof.Proof.Gen.ReferenceIdeal.Read
import proofs.«169174_j62637803045574_1_alg».proof.Proof.RefIsProduct
import proofs.«169174_j62637803045574_1_alg».proof.Proof.Fold
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is ten host operations: its run ends with the arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the product of its arguments (the tiles' shares
    added up) and the reference's at the same product (one sum) of arguments that agree. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
